-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel

variable [Facts]

def fn {F : FTy → Type} [FloatOps F] (main_arg0 : FVec F S10000x128 .f32) (main_arg1 : IVec S10000x10000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  main_v3
-- ==== Kernel.lean ====
abbrev S10000x128 : Shape := ⟨2, ![10000, 128]⟩
abbrev S10000x10000 : Shape := ⟨2, ![10000, 10000]⟩
abbrev S400x10000 : Shape := ⟨2, ![400, 10000]⟩
abbrev S400x128 : Shape := ⟨2, ![400, 128]⟩

abbrev nBuf : Space → Nat
  | .hbm => 3
  | .vmem => 5
  | .smem => 0
  | _ => 0

abbrev bufTy : (tb : Table) → Fin (tcTables nBuf tb) → BufTy
  | .hbm, ⟨0, _⟩ => ⟨S10000x128, .f32⟩
  | .hbm, ⟨1, _⟩ => ⟨S10000x10000, .i32⟩
  | .hbm, ⟨2, _⟩ => ⟨S10000x128, .f32⟩
  | .local _ .vmem, ⟨0, _⟩ => ⟨S10000x128, .f32⟩
  | .local _ .vmem, ⟨1, _⟩ => ⟨S400x10000, .i32⟩
  | .local _ .vmem, ⟨2, _⟩ => ⟨S400x10000, .i32⟩
  | .local _ .vmem, ⟨3, _⟩ => ⟨S400x128, .f32⟩
  | .local _ .vmem, ⟨4, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v9 : BitVec 32 := Scalar.muli arg0 c400_i32
  let v10 : Index := Scalar.indexCast v9
  let c0_3 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  natLt_1_32 : 1 < 32
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  h_S400x128 : 0 < S400x128.numel
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .i32 = 32 ∨ (Rect.block (s := S10000x10000) S400x10000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .i32⟩
  | .hbm, ⟨2, _⟩ => ⟨S_, .i32⟩
  | .hbm, ⟨3, _⟩ => ⟨S10000x10000, .i32⟩
  | .hbm, ⟨4, _⟩ => ⟨S10000x10000, .i1⟩
  | .hbm, ⟨5, _⟩ => ⟨S10000x10000, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  dot_S10000x10000_S10000x128_S10000x128_1_0_0_1_n_n_wf : DotDims.WF S10000x10000 S10000x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Pool.lean ====
/-
  The pooled sum over a graph's adjacency matrix, stated once over whole arrays.

  x is a feature matrix of 10000 rows and 128 columns, adj an integer matrix of 10000 by 10000. Row i of the result
  is the sum of the rows x(k, ·) over those k with adj(i, k) = 1, plus the row x(i, ·) itself:

      pool x adj (i, c)  =  Σ_k [adj(i, k) = 1] · x(k, c)  +  x(i, c),

  where [adj(i, k) = 1] is the number 1 when the entry is the word 1 and the number 0 otherwise. It is written as the
  comparison's one-bit answer read as a natural number, which is how both programs produce it. Everything is over the
  extended reals; nothing here needs the entries of x to be finite, because the two programs form the very same sum
  of the very same products and add the very same last term.
-/
import Idealize.ShloMosaic.PureOps.Ideal
import Idealize.ShloMosaic.Lib.ValueIdx

noncomputable section

namespace Cert.Pool

open Idealize.ShloMosaic Idealize.ShloMosaic.ValueIdx

/-- The indicator of "this adjacency word is 1" as an extended real: the comparison's bit, read as a number. -/
def ind (a : BitVec 32) : EReal := (((IntOp.cmpi .eq a 1#32).toNat : ℝ) : EReal)

/-- The pooled sum at (i, c): Σ_k [adj(i, k) = 1] · x(k, c) + x(i, c). -/
def pool (x : (⟨2, ![10000, 128]⟩ : Shape).Idx → EReal) (adj : (⟨2, ![10000, 10000]⟩ : Shape).Idx → BitVec 32) :
    (⟨2, ![10000, 128]⟩ : Shape).Idx → EReal :=
  fun j => (∑ k : Fin 10000, ind (adj (ix2 (j 0) k)) * x (ix2 k (j 1))) + x j

/-- The same, with the index written by its coordinates. -/
theorem pool_apply (x : (⟨2, ![10000, 128]⟩ : Shape).Idx → EReal) (adj : (⟨2, ![10000, 10000]⟩ : Shape).Idx → BitVec 32)
    (i : Fin 10000) (c : Fin 128) :
    pool x adj (ix2 i c) = (∑ k : Fin 10000, ind (adj (ix2 i k)) * x (ix2 k c)) + x (ix2 i c) := rfl

/-- A one-bit answer widened to 32 bits and read as a signed number is the indicator: the widened word is 0 or 1. -/
theorem ind_of_widened (a : BitVec 32) :
    ((((IntOp.cmpi .eq a 1#32).setWidth 32).toInt : ℝ) : EReal) = ind a := by
  unfold ind
  have h : ∀ b : BitVec 1, (b.setWidth 32).toInt = (b.toNat : ℤ) := by decide
  rw [h]
  norm_cast

end Cert.Pool

end
-- ==== Proof.RefPool.lean ====
/-
  The reference computes the pooled sum.

  The reference compares every adjacency entry with the word 1, converts the one-bit answer to a number, multiplies the
  resulting 10000 × 10000 matrix of zeros and ones with x by one whole matrix product, and adds x. Read at an index
  (i, c), operation by operation: the product is Σ_k mask(i, k) · x(k, c), the mask entry is the indicator of
  adj(i, k) = 1, and the final addition contributes x(i, c). That is the pooled sum of Pool.lean, term for term.
-/
import proofs.«118822_g28157805593351_cont_9to1_1759_9_alg».proof.Proof.Gen.ReferenceIdeal.Read
import proofs.«118822_g28157805593351_cont_9to1_1759_9_alg».proof.Proof.Pool

noncomputable section

namespace Cert.RefPool

open Cert.ReferenceIdeal Cert.ReferenceIdeal.Read Idealize.ShloMosaic Idealize.ShloMosaic.ValueIdx Cert.Pool

/-- The product's left operand at result index i and contraction coordinate k is read at (i₀, k). -/
theorem left_index (i : S10000x128.Idx) (k : Fin 10000) : lidx_main_v3 i k = ix2 (i 0) k :=
  funext fun a => Fin.ext (by match a with | ⟨0, _⟩ => rfl | ⟨1, _⟩ => rfl)

/-- Its right operand there is read at (k, i₁). -/
theorem right_index (i : S10000x128.Idx) (k : Fin 10000) : ridx_main_v3 i k = ix2 k (i 1) :=
  funext fun a => Fin.ext (by match a with | ⟨0, _⟩ => rfl | ⟨1, _⟩ => rfl)

/-- The reference's result, as a function of x and adj, is the pooled sum. -/
theorem reference_eq_pool (x : FVec Ideal S10000x128 .f32) (adj : IVec S10000x10000 32) :
    val_main_v4 (F := Ideal) x adj = pool x adj := by
  funext i
  rw [val_main_v4_apply, val_main_v3_apply]
  simp only [val_main_v2_apply, val_main_v1_apply, val_main_v0_apply, val_main_c_apply, left_index, right_index]
  rfl

end Cert.RefPool

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.KernelPayload.lean ====
/-
  What the kernel's body stores, read at an index.

  At one grid point the body holds a block of 400 rows of adj, all of x, and the 400 rows of x that belong to the
  block's rows. It compares the adjacency block with 1, widens the one-bit answer to a word, converts it to a number,
  multiplies the 400 × 10000 matrix of zeros and ones with x on the matrix unit into a zero accumulator, and adds the
  400 rows of x. The two narrowings to a shorter float format change nothing on extended reals. So at (p, e) of the
  block the stored value is Σ_k [adjblock(p, k) = 1] · x(k, e) + xrows(p, e).
-/
import proofs.«118822_g28157805593351_cont_9to1_1759_9_alg».proof.Proof.Gen.KernelIdeal.Skeleton
import proofs.«118822_g28157805593351_cont_9to1_1759_9_alg».proof.Proof.Pool
import proofs.«118822_g28157805593351_cont_9to1_1759_9_alg».proof.Proof.LibPlainMatmul

noncomputable section

namespace Cert.KernelPool

open Cert.KernelIdeal Cert.KernelIdeal.Gen Idealize.ShloMosaic Idealize.ShloMosaic.ValueIdx Cert.Pool

/-- The body's dimension numbers are those of an ordinary [400, 10000] × [10000, 128] product. -/
theorem dims_plain : dot_S400x10000_S10000x128_S400x128_1_0_0_1_n_n = DotDims.plain 400 10000 128 := rfl

/-- The stored block at (p, e): the masked sum over all 10000 rows of x, plus the block's own row of x. -/
theorem payload_apply (adjblock : Vec Ideal S400x10000 .i32) (x : Vec Ideal S10000x128 .f32) (xrows : Vec Ideal S400x128 .f32)
    (p : Fin 400) (e : Fin 128) :
    k0_pay1 (F := Ideal) adjblock x xrows (ix2 p e)
      = (∑ k : Fin 10000, ind (adjblock (ix2 p k)) * x (ix2 k e)) + xrows (ix2 p e) := by
  unfold k0_pay1
  refine congrArg (· + xrows (ix2 p e)) ?_
  refine (congrArg (fun d => FloatOps.matmul d none _ _ (constant S400x128 .f32 0x00000000#32) (ix2 p e)) dims_plain).trans ?_
  refine (matmul_plain_zero_apply 400 10000 128 none _ _ p e).trans ?_
  refine Finset.sum_congr rfl fun k _ => ?_
  exact congrArg (· * x (ix2 k e)) (ind_of_widened (adjblock (ix2 p k)))

/-- The same entry against whole arrays: when row p of the adjacency block is row r of adj, and the block's own row p
    of x is row r of x, the stored value at (p, e) is the pooled sum at (r, e). -/
theorem block_entry (adjblock : Vec Ideal S400x10000 .i32) (x : Vec Ideal S10000x128 .f32) (xrows : Vec Ideal S400x128 .f32)
    (adj : (⟨2, ![10000, 10000]⟩ : Shape).Idx → BitVec 32) (r : Fin 10000) (p : Fin 400) (e : Fin 128)
    (hadj : ∀ k : Fin 10000, adjblock (ix2 p k) = adj (ix2 r k))
    (hrow : xrows (ix2 p e) = x (ix2 r e)) :
    k0_pay1 (F := Ideal) adjblock x xrows (ix2 p e) = pool x adj (ix2 r e) := by
  rw [payload_apply, pool_apply, hrow]
  simp only [hadj]

end Cert.KernelPool

end
-- ==== Proof.KernelArray.lean ====
/-
  From the blocks the kernel writes to the whole result array.

  The grid has 25 points. At point t the kernel holds rows 400 t … 400 t + 399 of adj (all 10000 columns), the whole
  of x, and writes rows 400 t … 400 t + 399 of the result (all 128 columns). Besides the whole of x the body reads the
  400 rows of x starting at row 400 t, through a rectangle whose first offset is computed from the grid position.

  Three things are shown here. First, what the body leaves in the output's staging buffer is its one store's value,
  a function of the three loads. Second, read through block t, that value is the pooled sum restricted to the block:
  row p of the block is row 400 t + p of the arrays, for the adjacency block, for the kernel's own rows of x, and for
  the output block alike. Third, the 25 blocks cover every row (row r lies in block r / 400), so the result array after
  the run is the pooled sum of the argument arrays everywhere.
-/
import proofs.«118822_g28157805593351_cont_9to1_1759_9_alg».proof.Proof.Gen.KernelIdeal.Value
import proofs.«118822_g28157805593351_cont_9to1_1759_9_alg».proof.Proof.KernelPayload
import Idealize.ShloMosaic.Lib.Tactic

noncomputable section

namespace Cert.KernelArray

open Cert.KernelIdeal Cert.KernelIdeal.Gen Idealize.ShloMosaic Idealize.ShloMosaic.TcCoe Idealize.SL.Sem
open Idealize.ShloMosaic.Pipeline (Dat)
open Idealize.ShloMosaic.ValueIdx Cert.Pool Cert.KernelPool

/-! ## What the body stores -/

section AnyValues
variable {F : FTy → Type} [FloatOps F]

theorem zero_offsets : (![0, 0] : Fin 2 → Nat) = fun _ => 0 := funext fun a => by fin_cases a <;> rfl

/-- The body's one store covers the output block, so the block ends holding the stored value: the body's arithmetic
    applied to the adjacency block, to x, and to the rows of x read through the rectangle that starts at the grid
    position's row offset. -/
theorem stored_block (c : Dev nD) (i : grid0.Coords) (arg1 : Memref sig .tc .vmem S10000x128 .f32) (harg1 : arg1.IsWhole)
    (arg2 : Memref sig .tc .vmem S400x10000 .i32) (harg2 : arg2.IsWhole) (arg3 : Memref sig .tc .vmem S400x128 .f32) (harg3 : arg3.IsWhole)
    (x0 : Vec F S10000x128 .f32) (x1 : Vec F S400x10000 .i32) :
    out0_A_2 c i arg1 harg1 arg2 harg2 arg3 harg3 x0 x1
      = k0_pay1 x1 x0 (View.ld x0 (Rect.unit (s := S10000x128) (k0_off1 i) S400x128.size (k0_off1_inb i))) := by
  unfold out0_A_2
  rw [View.read_writes_eq_canon _ _ _ (cover0_A_2 c i arg1 harg1 arg2 harg2 arg3 harg3 x0 x1)]
  unfold kernelRun0_A
  dsimp only
  rw [View.canon_unit_zero zero_offsets]
  simp only [View.readAt_eq_ld, harg1.read_unread, harg2.read_unread, View.ld_unit_zero (S := S10000x128) zero_offsets,
    View.ld_unit_zero (S := S400x10000) zero_offsets]

end AnyValues

/-! ## Where each block sits -/

/-- Over the 25 grid points: x's window never moves; the adjacency window and the output window sit at block row t,
    block column 0; and the row offset the body computes for its own rows of x is 400 t (the 32-bit product does not
    wrap). -/
theorem grid_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ k0_off1 (grid0.coords t) (0 : Fin 2) = 400 * t.val ∧ k0_off1 (grid0.coords t) (1 : Fin 2) = 0 :=
  (by decide +kernel : ∀ t : Fin grid0.N, _)

theorem points : cfg0.N = 25 := N_0

/-- Row p of block t is row 400 t + p of the arrays. -/
def row (t : Fin cfg0.N) (p : Fin 400) : Fin 10000 :=
  ⟨400 * t.val + p.val, by have h : t.val < 25 := lt_of_lt_of_eq t.isLt points; have := p.isLt; omega⟩

variable (m : (ℓ : Loc nD τ sig) → Buf (Elt Ideal) ℓ) (ρ : Dev nD → PrngReg)

/-- x's block, at every point, is the whole of x. -/
theorem x_block (c : Dev nD) (t : Fin cfg0.N) : (iblk m c 0 t : Vec Ideal S10000x128 .f32) = V m c main_arg0 := by
  obtain ⟨e0, e1, -⟩ := grid_facts t
  funext y
  show V m c main_arg0 (((cfg0.win 0).blk t).view.emb y) = V m c main_arg0 y
  refine congrArg (V m c main_arg0) ?_
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The adjacency block at point t, at (p, k), is adj at (400 t + p, k). -/
theorem adj_block (c : Dev nD) (t : Fin cfg0.N) (p : Fin 400) (k : Fin 10000) :
    (iblk m c 1 t : Vec Ideal S400x10000 .i32) (ix2 p k) = V m c main_arg1 (ix2 (row t p) k) := by
  obtain ⟨-, -, e2, e3, -⟩ := grid_facts t
  show V m c main_arg1 (((cfg0.win 1).blk t).view.emb (ix2 p k)) = V m c main_arg1 (ix2 (row t p) k)
  refine congrArg (V m c main_arg1) ?_
  funext a; apply Fin.ext
  match a with
  | ⟨0, _⟩ => show win0_1.index t (0 : Fin 2) * 400 + 1 * p.val = 400 * t.val + p.val; omega
  | ⟨1, _⟩ => show win0_1.index t (1 : Fin 2) * 10000 + 1 * k.val = k.val; omega

/-- The rows of x the body reads for itself at point t, at (p, e), are x at (400 t + p, e). -/
theorem own_rows (X : Vec Ideal S10000x128 .f32) (t : Fin cfg0.N) (p : Fin 400) (e : Fin 128) :
    View.ld (Val := Elt Ideal) (e' := .f32) X
        (Rect.unit (s := S10000x128) (k0_off1 (grid0.coords t)) S400x128.size (k0_off1_inb (grid0.coords t))) (ix2 p e)
      = X (ix2 (row t p) e) := by
  obtain ⟨-, -, -, -, -, -, e6, e7⟩ := grid_facts t
  show X _ = X _
  refine congrArg X ?_
  funext a; apply Fin.ext
  match a with
  | ⟨0, _⟩ => show k0_off1 (grid0.coords t) (0 : Fin 2) + 1 * p.val = 400 * t.val + p.val; omega
  | ⟨1, _⟩ => show k0_off1 (grid0.coords t) (1 : Fin 2) + 1 * e.val = e.val; omega

/-- Entry (p, e) of the output block at point t is entry (400 t + p, e) of the result array. -/
theorem out_index (t : Fin cfg0.N) (p : Fin 400) (e : Fin 128) :
    ((cfg0.win 2).blk t).view.emb (ix2 p e) = ix2 (row t p) e := by
  obtain ⟨-, -, -, -, e4, e5, -⟩ := grid_facts t
  funext a; apply Fin.ext
  match a with
  | ⟨0, _⟩ => show win0_2.index t (0 : Fin 2) * 400 + 1 * p.val = 400 * t.val + p.val; omega
  | ⟨1, _⟩ => show win0_2.index t (1 : Fin 2) * 128 + 1 * e.val = e.val; omega

/-! ## Each block is the pooled sum's block, and the blocks cover the array -/

/-- What point t writes back is block t of the pooled sum of the argument arrays. -/
theorem flushed_eq (c : Dev nD) (t : Fin cfg0.N) :
    (dats m 0 c).flushed 2 t
      = ((cfg0.win 2).blk t).view.read (Elt Ideal) (pool (V m c main_arg0) (V m c main_arg1)) := by
  rw [Cert.KernelIdeal.Value.flushed2_A, stored_block, x_block]
  funext j
  obtain ⟨p, e, rfl⟩ : ∃ (p : Fin 400) (e : Fin 128), j = ix2 p e := ⟨j 0, j 1, eq_ix2 j⟩
  show k0_pay1 (iblk m c 1 t) (V m c main_arg0) _ (ix2 p e)
    = pool (V m c main_arg0) (V m c main_arg1) (((cfg0.win 2).blk t).view.emb (ix2 p e))
  rw [out_index]
  exact block_entry (iblk m c 1 t) (V m c main_arg0) _ (V m c main_arg1) (row t p) p e
    (fun k => adj_block m c t p k) (own_rows (V m c main_arg0) t p e)

/-- An index lies in block t exactly when each coordinate lies in the block's range on its axis. -/
theorem mem_block (t : Fin cfg0.N) (i : S10000x128.Idx) :
    i ∈ ((cfg0.win 2).blk t).view.set
      ↔ ∀ a : Fin 2, win0_2.index t a * S400x128.size a ≤ (i a).val
          ∧ (i a).val < win0_2.index t a * S400x128.size a + S400x128.size a := by
  show i ∈ ((View.whole main_v0).slice (win0_2.rect t)).set ↔ _
  rw [View.set_slice_whole, Rect.mem_set_unit]
  exact Iff.rfl

/-- Every index of the result is written: row r lies in the block of point r / 400. -/
theorem covered (i : S10000x128.Idx) :
    ∃ t : Fin cfg0.N, (cfg0.win 2).flush t = true ∧ i ∈ ((cfg0.win 2).blk t).view.set := by
  have h0 : (i 0).val < 10000 := idx2_lt0 i
  have h1 : (i 1).val < 128 := idx2_lt1 i
  have ht : (i 0).val / 400 < cfg0.N := lt_of_lt_of_eq (by omega : (i 0).val / 400 < 25) points.symm
  obtain ⟨-, -, -, -, e4, e5, -⟩ := grid_facts ⟨(i 0).val / 400, ht⟩
  refine ⟨⟨(i 0).val / 400, ht⟩, flush0_2 _, ?_⟩
  rw [mem_block]
  intro a
  match a with
  | ⟨0, _⟩ =>
    show win0_2.index ⟨(i 0).val / 400, ht⟩ (0 : Fin 2) * 400 ≤ (i 0).val
      ∧ (i 0).val < win0_2.index ⟨(i 0).val / 400, ht⟩ (0 : Fin 2) * 400 + 400
    rw [e4]; dsimp only; omega
  | ⟨1, _⟩ =>
    show win0_2.index ⟨(i 0).val / 400, ht⟩ (1 : Fin 2) * 128 ≤ (i 1).val
      ∧ (i 1).val < win0_2.index ⟨(i 0).val / 400, ht⟩ (1 : Fin 2) * 128 + 128
    rw [e5]; omega

/-- The result array after the run is the pooled sum of the argument arrays. -/
theorem final (c : Dev nD) :
    (dats m 0 c).arrAt 2 cfg0.N
      = pool (m ((c : Thread nD τ).loc main_arg0)) (m ((c : Thread nD τ).loc main_arg1)) :=
  (dats m 0 c).arrAt_eq_of_cover 2 (pool (V m c main_arg0) (V m c main_arg1)) (fun t _ => flushed_eq m c t) covered

/-- The kernel's run: it terminates without a fault, its result array is the pooled sum of its arguments, and the
    arguments are unchanged. -/
theorem run : θ_run defs (onTc (τ := τ) (main (F := Ideal))) ⟨m, fun _ => 0, ρ⟩ fun r => ∀ c : Dev nD,
      r.2.mem ((c : Thread nD τ).loc main_v0)
        = pool (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelArray

end
-- ==== Proof.lean ====
/-
  The kernel and its reference compute the same pooled sum over a graph's adjacency matrix.

  Both programs take x (10000 × 128 floats) and adj (10000 × 10000 integers) and return, at (i, c),

      Σ_k [adj(i, k) = 1] · x(k, c)  +  x(i, c).

  The reference forms the 0/1 mask of adj, multiplies it with x by one whole matrix product, and adds x. The kernel
  walks over 25 blocks of 400 rows: for each it forms the mask of the block's rows of adj, multiplies it with the
  whole of x on the matrix unit into a zero accumulator, adds the block's own rows of x, and writes the block of the
  result. Over the extended reals a change of float format is the identity and both products are the plain sum over
  k, so the two results agree entry by entry; the sums are the same sums of the same products, and no finiteness of
  x is needed for that.

  Pool.lean states the pooled sum; RefPool.lean shows the reference computes it; KernelPayload.lean reads what the
  kernel's body stores at an index; KernelArray.lean carries the blocks to the whole result array. The three runs
  terminate without a fault and leave the arguments unchanged (the kernel's two frames from the generated modules, the
  reference's from its generated run); the idealized kernel is the kernel's own text, so nothing is owed for it.
-/
import proofs.«118822_g28157805593351_cont_9to1_1759_9_alg».proof.Defs
import proofs.«118822_g28157805593351_cont_9to1_1759_9_alg».proof.Proof.Gen.Kernel
import proofs.«118822_g28157805593351_cont_9to1_1759_9_alg».proof.Proof.Gen.Kernel.Skeleton
import proofs.«118822_g28157805593351_cont_9to1_1759_9_alg».proof.Proof.Gen.Kernel.Launch
import proofs.«118822_g28157805593351_cont_9to1_1759_9_alg».proof.Proof.Gen.Kernel.Points
import proofs.«118822_g28157805593351_cont_9to1_1759_9_alg».proof.Proof.Gen.Kernel.Frame
import proofs.«118822_g28157805593351_cont_9to1_1759_9_alg».proof.Proof.Gen.KernelIdeal
import proofs.«118822_g28157805593351_cont_9to1_1759_9_alg».proof.Proof.Gen.KernelIdeal.Skeleton
import proofs.«118822_g28157805593351_cont_9to1_1759_9_alg».proof.Proof.Gen.KernelIdeal.Launch
import proofs.«118822_g28157805593351_cont_9to1_1759_9_alg».proof.Proof.Gen.KernelIdeal.Points
import proofs.«118822_g28157805593351_cont_9to1_1759_9_alg».proof.Proof.Gen.KernelIdeal.Frame
import proofs.«118822_g28157805593351_cont_9to1_1759_9_alg».proof.Proof.Gen.ReferenceIdeal
import proofs.«118822_g28157805593351_cont_9to1_1759_9_alg».proof.Proof.Gen.Pre_finite_inputs
import proofs.«118822_g28157805593351_cont_9to1_1759_9_alg».proof.Proof.Gen.KernelIdeal.Value
import proofs.«118822_g28157805593351_cont_9to1_1759_9_alg».proof.Proof.Gen.ReferenceIdeal.Run
import proofs.«118822_g28157805593351_cont_9to1_1759_9_alg».proof.Proof.Gen.ReferenceIdeal.Read
import proofs.«118822_g28157805593351_cont_9to1_1759_9_alg».proof.Proof.Pool
import proofs.«118822_g28157805593351_cont_9to1_1759_9_alg».proof.Proof.RefPool
import proofs.«118822_g28157805593351_cont_9to1_1759_9_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten, so nothing is to be shown. -/
theorem preserves : Cert.preserves_Kernel_KernelIdeal := trivial

/-- From memories that agree on x and adj, both programs end with the pooled sum of x and adj in their result. -/
theorem algebraic : Cert.algebraic_KernelIdeal_ReferenceIdeal := by
  intro m ρ m' ρ' _ hagree
  refine ⟨fun c => Cert.Pool.pool (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelArray.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.RefPool.reference_eq_pool, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
